-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S1024x2048 .f32) (main_arg7 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S16x2048x1024 .f32) (main_arg1 : FVec F S2048x1024 .f32) (main_arg2 : FVec F S2048 .f32) (main_arg3 : FVec F S2048x2048 .f32) (main_arg4 : FVec F S2048 .f32) (main_arg5 : FVec F S2048 .f32) (main_arg6 : FVec F S1024x2048 .f32) (main_arg7 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S32768x1024 : Shape := ⟨2, ![32768, 1024]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 18
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S32768x1024, .f32⟩
  | .hbm, ⟨9, _⟩ => ⟨S2048x1024, .bf16⟩
  | .hbm, ⟨10, _⟩ => ⟨S2048x2048, .bf16⟩
  | .hbm, ⟨11, _⟩ => ⟨S1024x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x1024, .f32⟩
  | .hbm, ⟨16, _⟩ => ⟨S32768x1024, .f32⟩
  | .hbm, ⟨17, _⟩ => ⟨S16x2048x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S1024x2048, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x2048x1024_S32768x1024 : S16x2048x1024.ShapeCasts S32768x1024
  bitsLt_bf16_f32 : FTy.bits .bf16 < FTy.bits .f32
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S16x2048x1024 : S32768x1024.ShapeCasts S16x2048x1024
  dot_S512x1024_S2048x1024_S512x2048_1_1_0_0_n_n_wf : DotDims.WF S512x1024 S2048x1024 S512x2048 [1] [1] [0] [0] [] []
  dot_S512x2048_S2048x2048_S512x2048_1_1_0_0_n_n_wf : DotDims.WF S512x2048 S2048x2048 S512x2048 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .f32 = 32 ∨ (Rect.block (s := S32768x1024) S512x1024.size (cc0_transform_7 i) (hinb0_7 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S16x2048x2048 : Shape := ⟨3, ![16, 2048, 2048]⟩
abbrev S1x1x2048 : Shape := ⟨3, ![1, 1, 2048]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S16x2048x2048, .f32⟩
  | .hbm, ⟨9, _⟩ => ⟨S1x1x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S16x2048x2048_0_1_2 : S1x1x2048.BroadcastsInDim S16x2048x2048 (![0, 1, 2] : Fin 3 → Fin S16x2048x2048.rank)
  bcast_S_S16x2048x2048 : S_.BroadcastsInDim S16x2048x2048 (![] : Fin 0 → Fin S16x2048x2048.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S2048x1024_S16x2048x2048_2_1_01_0_n_n_wf : DotDims.WF S16x2048x1024 S2048x1024 S16x2048x2048 [2] [1] [0, 1] [0] [] []
  dot_S16x2048x2048_S2048x2048_S16x2048x2048_2_1_01_0_n_n_wf : DotDims.WF S16x2048x2048 S2048x2048 S16x2048x2048 [2] [1] [0, 1] [0] [] []
  dot_S16x2048x2048_S1024x2048_S16x2048x1024_2_1_01_0_n_n_wf : DotDims.WF S16x2048x2048 S1024x2048 S16x2048x1024 [2] [1] [0, 1] [0] [] []

variable [Facts₀]

def dot_S16x2048x1024_S2048x1024_S16x2048x2048_2_1_01_0_n_n : DotDims S16x2048x1024 S2048x1024 S16x2048x2048 where
  lhsContracting := [2]
  rhsContracting := [1]
  lhsNonContracting := [0, 1]
  rhsNonContracting := [0]
  lhsBatch := []
  rhsBatch := []
  wf := dot_S16x2048x1024_S2048x1024_S16x2048x2048_2_1_01_0_n_n_wf
def dot_S16x2048x2048_S2048x2048_S16x2048x2048_2_1_01_0_n_n : DotDims S16x2048x2048 S2048x2048 S16x2048x2048 where
  lhsContracting := [2]
  rhsContracting := [1]
  lhsNonContracting := [0, 1]
  rhsNonContracting := [0]
  lhsBatch := []
  rhsBatch := []
  wf := dot_S16x2048x2048_S2048x2048_S16x2048x2048_2_1_01_0_n_n_wf
def dot_S16x2048x2048_S1024x2048_S16x2048x1024_2_1_01_0_n_n : DotDims S16x2048x2048 S1024x2048 S16x2048x1024 where
  lhsContracting := [2]
  rhsContracting := [1]
  lhsNonContracting := [0, 1]
  rhsNonContracting := [0]
  lhsBatch := []
  rhsBatch := []
  wf := dot_S16x2048x2048_S1024x2048_S16x2048x1024_2_1_01_0_n_n_wf

class Facts : Prop extends Facts₀ where

variable [Facts]
-- ==== Proof.Network.lean ====
/-
  The function both programs compute, stated once over the extended reals and over no program.

  One row `x` of 1024 numbers goes through three affine layers, a rectifier after the first two:
    h   = max (W₁ x + b₁) 0        (2048 units)
    o   = max (W₂ h + b₂) 0        (2048 units)
    y   =      W₃ o + b₃           (1024 units)
  where `(W x) g = ∑ k, x k · W g k`: every weight matrix is stored unit-major and contracted along its
  second axis. The whole array is this row map applied to each of the 16 × 2048 rows of the input.
  The zero of the rectifier is kept as the f32 zero word read at the ideal values; nothing here needs its value.
-/
import Idealize.ShloMosaic.PureOps.Ideal
import Idealize.ShloMosaic.Lib.ValueIdx

noncomputable section

namespace Cert.Network

open Idealize.ShloMosaic Idealize.ShloMosaic.ValueIdx

/-- One affine layer read at output unit `g`: the inner product of the row with that unit's weights, plus its bias. -/
def affine {K N : ℕ} (W : Fin N → Fin K → EReal) (b : Fin N → EReal) (x : Fin K → EReal) (g : Fin N) : EReal :=
  ∑ k : Fin K, x k * W g k + b g

/-- The rectifier: the larger of a value and the f32 zero word. -/
def relu (v : EReal) : EReal := max v (Ideal.ofBits .f32 0x00000000#32)

/-- The three layers on one row. -/
def rowNet (W₁ : Fin 2048 → Fin 1024 → EReal) (b₁ : Fin 2048 → EReal)
    (W₂ : Fin 2048 → Fin 2048 → EReal) (b₂ : Fin 2048 → EReal)
    (W₃ : Fin 1024 → Fin 2048 → EReal) (b₃ : Fin 1024 → EReal) (x : Fin 1024 → EReal) : Fin 1024 → EReal :=
  affine W₃ b₃ fun g => relu (affine W₂ b₂ (fun h => relu (affine W₁ b₁ x h)) g)

/-- The result array as ONE function of the eight argument arrays: entry `(b, s, a)` is output unit `a` of the
    row map on row `(b, s)` of `x`; the second layer's bias is the sum of the two bias arguments. -/
def result (x : (⟨3, ![16, 2048, 1024]⟩ : Shape).Idx → EReal) (Wi : (⟨2, ![2048, 1024]⟩ : Shape).Idx → EReal)
    (bi : (⟨1, ![2048]⟩ : Shape).Idx → EReal) (Wh : (⟨2, ![2048, 2048]⟩ : Shape).Idx → EReal)
    (bih bhh : (⟨1, ![2048]⟩ : Shape).Idx → EReal) (Wf : (⟨2, ![1024, 2048]⟩ : Shape).Idx → EReal)
    (bf : (⟨1, ![1024]⟩ : Shape).Idx → EReal) : (⟨3, ![16, 2048, 1024]⟩ : Shape).Idx → EReal := fun i =>
  rowNet (fun g k => Wi (ix2 g k)) (fun g => bi (ix1 g)) (fun g k => Wh (ix2 g k)) (fun g => bih (ix1 g) + bhh (ix1 g))
    (fun a k => Wf (ix2 a k)) (fun a => bf (ix1 a)) (fun k => x (ix3 (i 0) (i 1) k)) (i 2)

/-- The result at explicit coordinates. -/
theorem result_ix3 (x : (⟨3, ![16, 2048, 1024]⟩ : Shape).Idx → EReal) (Wi : (⟨2, ![2048, 1024]⟩ : Shape).Idx → EReal)
    (bi : (⟨1, ![2048]⟩ : Shape).Idx → EReal) (Wh : (⟨2, ![2048, 2048]⟩ : Shape).Idx → EReal)
    (bih bhh : (⟨1, ![2048]⟩ : Shape).Idx → EReal) (Wf : (⟨2, ![1024, 2048]⟩ : Shape).Idx → EReal)
    (bf : (⟨1, ![1024]⟩ : Shape).Idx → EReal) (b : Fin 16) (s : Fin 2048) (a : Fin 1024) :
    result x Wi bi Wh bih bhh Wf bf (ix3 b s a)
      = rowNet (fun g k => Wi (ix2 g k)) (fun g => bi (ix1 g)) (fun g k => Wh (ix2 g k)) (fun g => bih (ix1 g) + bhh (ix1 g))
          (fun a k => Wf (ix2 a k)) (fun a => bf (ix1 a)) (fun k => x (ix3 b s k)) a := rfl

end Cert.Network

end
-- ==== Proof.RefValue.lean ====
/-
  The reference program computes the specification `Cert.Network.result`.

  Its run is a composition of host operations; read one operation at a time at an index, the three contractions are
  sums over the contracted axis, the broadcasts read the bias at the unit's coordinate, and the rectifier is a
  maximum with the zero word. Layer by layer this is the row map of the specification on row `(b, s)`.
  The one place the two spellings differ is the second bias: the reference adds the two bias arguments one after
  the other, `(s + b_ih) + b_hh`, where the specification adds their sum, `s + (b_ih + b_hh)`: associativity of
  addition on the extended reals, which holds at the infinities too.
-/
import proofs.«101347_j7885559955596_2_alg».proof.Proof.Gen.ReferenceIdeal.Read
import proofs.«101347_j7885559955596_2_alg».proof.Proof.Network

noncomputable section

namespace Cert.ReferenceIdeal.RefValue

open Cert.ReferenceIdeal Cert.ReferenceIdeal.Gen Cert.ReferenceIdeal.Read Cert.Network
open Idealize.ShloMosaic Idealize.ShloMosaic.ValueIdx

/-! ## The operations' index functions at explicit coordinates -/

theorem lhs0 (b : Fin 16) (s g : Fin 2048) (k : Fin 1024) : lidx_main_v0 (ix3 b s g) k = ix3 b s k :=
  funext fun a => by match a with | ⟨0, _⟩ => rfl | ⟨1, _⟩ => rfl | ⟨2, _⟩ => rfl
theorem rhs0 (b : Fin 16) (s g : Fin 2048) (k : Fin 1024) : ridx_main_v0 (ix3 b s g) k = ix2 g k :=
  funext fun a => by match a with | ⟨0, _⟩ => rfl | ⟨1, _⟩ => rfl
theorem bias2 (b : Fin 16) (s g : Fin 2048) : idx_main_v1 (idx_main_v2 (ix3 b s g)) = ix1 g :=
  funext fun a => by match a with | ⟨0, _⟩ => rfl

theorem lhs5 (b : Fin 16) (s g k : Fin 2048) : lidx_main_v5 (ix3 b s g) k = ix3 b s k :=
  funext fun a => by match a with | ⟨0, _⟩ => rfl | ⟨1, _⟩ => rfl | ⟨2, _⟩ => rfl
theorem rhs5 (b : Fin 16) (s g k : Fin 2048) : ridx_main_v5 (ix3 b s g) k = ix2 g k :=
  funext fun a => by match a with | ⟨0, _⟩ => rfl | ⟨1, _⟩ => rfl
theorem bias7 (b : Fin 16) (s g : Fin 2048) : idx_main_v6 (idx_main_v7 (ix3 b s g)) = ix1 g :=
  funext fun a => by match a with | ⟨0, _⟩ => rfl
theorem bias10 (b : Fin 16) (s g : Fin 2048) : idx_main_v9 (idx_main_v10 (ix3 b s g)) = ix1 g :=
  funext fun a => by match a with | ⟨0, _⟩ => rfl

theorem lhs13 (b : Fin 16) (s : Fin 2048) (a : Fin 1024) (k : Fin 2048) : lidx_main_v13 (ix3 b s a) k = ix3 b s k :=
  funext fun d => by match d with | ⟨0, _⟩ => rfl | ⟨1, _⟩ => rfl | ⟨2, _⟩ => rfl
theorem rhs13 (b : Fin 16) (s : Fin 2048) (a : Fin 1024) (k : Fin 2048) : ridx_main_v13 (ix3 b s a) k = ix2 a k :=
  funext fun d => by match d with | ⟨0, _⟩ => rfl | ⟨1, _⟩ => rfl
theorem bias15 (b : Fin 16) (s : Fin 2048) (a : Fin 1024) : idx_main_v14 (idx_main_v15 (ix3 b s a)) = ix1 a :=
  funext fun d => by match d with | ⟨0, _⟩ => rfl

/-! ## The three layers -/

variable (x0 : (⟨S16x2048x1024, .f32⟩ : BufTy).Contents (Elt Ideal)) (x1 : (⟨S2048x1024, .f32⟩ : BufTy).Contents (Elt Ideal))
  (x2 : (⟨S2048, .f32⟩ : BufTy).Contents (Elt Ideal)) (x3 : (⟨S2048x2048, .f32⟩ : BufTy).Contents (Elt Ideal))
  (x4 x5 : (⟨S2048, .f32⟩ : BufTy).Contents (Elt Ideal)) (x6 : (⟨S1024x2048, .f32⟩ : BufTy).Contents (Elt Ideal))
  (x7 : (⟨S1024, .f32⟩ : BufTy).Contents (Elt Ideal))

/-- The first rectified layer at row `(b, s)`, unit `g`. -/
theorem layer1 (b : Fin 16) (s g : Fin 2048) :
    val_main_v4 (F := Ideal) x0 x1 x2 (ix3 b s g)
      = relu (affine (fun g k => x1 (ix2 g k)) (fun g => x2 (ix1 g)) (fun k => x0 (ix3 b s k)) g) := by
  rw [val_main_v4_apply, val_main_v3_apply, val_main_v0_apply, val_main_v2_apply, val_main_v1_apply,
    val_main_call0_v0_apply, val_main_call0_cst_apply]
  simp only [lhs0, rhs0, bias2]
  rfl

/-- The second rectified layer at row `(b, s)`, unit `g`: the two biases added one after the other are their sum added once. -/
theorem layer2 (b : Fin 16) (s g : Fin 2048) :
    val_main_v12 (F := Ideal) x0 x1 x2 x3 x4 x5 (ix3 b s g)
      = relu (affine (fun g k => x3 (ix2 g k)) (fun g => x4 (ix1 g) + x5 (ix1 g))
          (fun h => relu (affine (fun g k => x1 (ix2 g k)) (fun g => x2 (ix1 g)) (fun k => x0 (ix3 b s k)) h)) g) := by
  rw [val_main_v12_apply, val_main_v11_apply, val_main_v8_apply, val_main_v5_apply, val_main_v7_apply, val_main_v6_apply,
    val_main_v10_apply, val_main_v9_apply, val_main_call1_v0_apply, val_main_call1_cst_apply]
  simp only [lhs5, rhs5, bias7, bias10, layer1]
  show max ((∑ k : Fin 2048, _ * x3 (ix2 g k)) + x4 (ix1 g) + x5 (ix1 g)) _ = max ((∑ k : Fin 2048, _ * x3 (ix2 g k)) + (x4 (ix1 g) + x5 (ix1 g))) _
  rw [add_assoc]
  rfl

/-- The output layer at row `(b, s)`, unit `a`. -/
theorem layer3 (b : Fin 16) (s : Fin 2048) (a : Fin 1024) :
    val_main_v16 (F := Ideal) x0 x1 x2 x3 x4 x5 x6 x7 (ix3 b s a)
      = result x0 x1 x2 x3 x4 x5 x6 x7 (ix3 b s a) := by
  rw [result_ix3, val_main_v16_apply, val_main_v13_apply, val_main_v15_apply, val_main_v14_apply]
  simp only [lhs13, rhs13, bias15, layer2]
  rfl

/-- The reference's result is the specification. -/
theorem val_eq_result : val_main_v16 (F := Ideal) x0 x1 x2 x3 x4 x5 x6 x7 = result x0 x1 x2 x3 x4 x5 x6 x7 := by
  funext i
  obtain ⟨b, s, a, rfl⟩ : ∃ (b : Fin 16) (s : Fin 2048) (a : Fin 1024), i = ix3 b s a := ⟨i 0, i 1, i 2, eq_ix3 i⟩
  exact layer3 x0 x1 x2 x3 x4 x5 x6 x7 b s a

end Cert.ReferenceIdeal.RefValue

end
-- ==== Proof.KernelBody.lean ====
/-
  What the kernel body stores, read at one entry of its block.

  The body loads a block of 512 rows of the input, the three weight matrices (whole), the three bias rows (whole,
  as 1 × n arrays), and stores ONE value: three matrix products into a zero accumulator, a bias row broadcast down
  the 512 rows after each, a maximum with zero after the first two. A change of float format is the identity at
  the ideal values, a product into the zero accumulator is the plain sum over the contracted axis, and the
  broadcast reads the bias row at the column. So entry `(p, q)` of the stored block is output unit `q` of the
  specification's row map on row `p` of the loaded input block.
-/
import proofs.«101347_j7885559955596_2_alg».proof.Proof.Gen.KernelIdeal.Skeleton
import proofs.«101347_j7885559955596_2_alg».proof.Proof.Network
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Network
open Idealize.ShloMosaic Idealize.ShloMosaic.ValueIdx

/-- The three products' dimension records: rows × contraction against units × contraction. -/
abbrev D1 : DotDims S512x1024 S2048x1024 S512x2048 := dot_S512x1024_S2048x1024_S512x2048_1_1_0_0_n_n
abbrev D2 : DotDims S512x2048 S2048x2048 S512x2048 := dot_S512x2048_S2048x2048_S512x2048_1_1_0_0_n_n
abbrev D3 : DotDims S512x2048 S1024x2048 S512x1024 := dot_S512x2048_S1024x2048_S512x1024_1_1_0_0_n_n

/-! ## The operand indices of each product: the left operand is read at (row, k), the right at (unit, k) -/

theorem d1_l0 (j : S512x2048.Idx) (q : D1.contr.Idx) : (D1.lhsIdx j q 0).val = (j 0).val := by
  unfold DotDims.lhsIdx
  rw [dif_neg (show ¬(0 : Fin S512x1024.rank) ∈ D1.lhsBatch by decide), dif_pos (show (0 : Fin S512x1024.rank) ∈ D1.lhsNonContracting by decide)]
  rfl
theorem d1_l1 (j : S512x2048.Idx) (q : D1.contr.Idx) : (D1.lhsIdx j q 1).val = (q ⟨0, by decide⟩).val :=
  D1.lhsIdx_val_of_single rfl j q
theorem d1_r0 (j : S512x2048.Idx) (q : D1.contr.Idx) : (D1.rhsIdx j q 0).val = (j 1).val := by
  unfold DotDims.rhsIdx
  rw [dif_neg (show ¬(0 : Fin S2048x1024.rank) ∈ D1.rhsBatch by decide), dif_pos (show (0 : Fin S2048x1024.rank) ∈ D1.rhsNonContracting by decide)]
  rfl
theorem d1_r1 (j : S512x2048.Idx) (q : D1.contr.Idx) : (D1.rhsIdx j q 1).val = (q ⟨0, by decide⟩).val :=
  D1.rhsIdx_val_of_single rfl j q

theorem d2_l0 (j : S512x2048.Idx) (q : D2.contr.Idx) : (D2.lhsIdx j q 0).val = (j 0).val := by
  unfold DotDims.lhsIdx
  rw [dif_neg (show ¬(0 : Fin S512x2048.rank) ∈ D2.lhsBatch by decide), dif_pos (show (0 : Fin S512x2048.rank) ∈ D2.lhsNonContracting by decide)]
  rfl
theorem d2_l1 (j : S512x2048.Idx) (q : D2.contr.Idx) : (D2.lhsIdx j q 1).val = (q ⟨0, by decide⟩).val :=
  D2.lhsIdx_val_of_single rfl j q
theorem d2_r0 (j : S512x2048.Idx) (q : D2.contr.Idx) : (D2.rhsIdx j q 0).val = (j 1).val := by
  unfold DotDims.rhsIdx
  rw [dif_neg (show ¬(0 : Fin S2048x2048.rank) ∈ D2.rhsBatch by decide), dif_pos (show (0 : Fin S2048x2048.rank) ∈ D2.rhsNonContracting by decide)]
  rfl
theorem d2_r1 (j : S512x2048.Idx) (q : D2.contr.Idx) : (D2.rhsIdx j q 1).val = (q ⟨0, by decide⟩).val :=
  D2.rhsIdx_val_of_single rfl j q

theorem d3_l0 (j : S512x1024.Idx) (q : D3.contr.Idx) : (D3.lhsIdx j q 0).val = (j 0).val := by
  unfold DotDims.lhsIdx
  rw [dif_neg (show ¬(0 : Fin S512x2048.rank) ∈ D3.lhsBatch by decide), dif_pos (show (0 : Fin S512x2048.rank) ∈ D3.lhsNonContracting by decide)]
  rfl
theorem d3_l1 (j : S512x1024.Idx) (q : D3.contr.Idx) : (D3.lhsIdx j q 1).val = (q ⟨0, by decide⟩).val :=
  D3.lhsIdx_val_of_single rfl j q
theorem d3_r0 (j : S512x1024.Idx) (q : D3.contr.Idx) : (D3.rhsIdx j q 0).val = (j 1).val := by
  unfold DotDims.rhsIdx
  rw [dif_neg (show ¬(0 : Fin S1024x2048.rank) ∈ D3.rhsBatch by decide), dif_pos (show (0 : Fin S1024x2048.rank) ∈ D3.rhsNonContracting by decide)]
  rfl
theorem d3_r1 (j : S512x1024.Idx) (q : D3.contr.Idx) : (D3.rhsIdx j q 1).val = (q ⟨0, by decide⟩).val :=
  D3.rhsIdx_val_of_single rfl j q

/-! ## Each product into the zero accumulator, at (row p, unit g): the sum over the contracted axis -/

theorem contract1 (l : FVec Ideal S512x1024 .bf16) (r : FVec Ideal S2048x1024 .bf16) (p : Fin 512) (g : Fin 2048) :
    matmul (F := Ideal) D1 none l r (constant (F := Ideal) S512x2048 .f32 0x00000000#32) (ix2 p g)
      = ∑ k : Fin 1024, l (ix2 p k) * r (ix2 g k) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p g) ((contrEquiv1 D1 1024 rfl rfl).symm k) = ix2 p k := funext fun a => Fin.ext (by
    match a with
    | ⟨0, _⟩ => exact d1_l0 _ _
    | ⟨1, _⟩ => exact (d1_l1 _ _).trans hk)
  have er : D1.rhsIdx (ix2 p g) ((contrEquiv1 D1 1024 rfl rfl).symm k) = ix2 g k := funext fun a => Fin.ext (by
    match a with
    | ⟨0, _⟩ => exact d1_r0 _ _
    | ⟨1, _⟩ => exact (d1_r1 _ _).trans hk)
  rw [el, er]

theorem contract2 (l : FVec Ideal S512x2048 .bf16) (r : FVec Ideal S2048x2048 .bf16) (p : Fin 512) (g : Fin 2048) :
    matmul (F := Ideal) D2 none l r (constant (F := Ideal) S512x2048 .f32 0x00000000#32) (ix2 p g)
      = ∑ k : Fin 2048, l (ix2 p k) * r (ix2 g k) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p g) ((contrEquiv1 D2 2048 rfl rfl).symm k) = ix2 p k := funext fun a => Fin.ext (by
    match a with
    | ⟨0, _⟩ => exact d2_l0 _ _
    | ⟨1, _⟩ => exact (d2_l1 _ _).trans hk)
  have er : D2.rhsIdx (ix2 p g) ((contrEquiv1 D2 2048 rfl rfl).symm k) = ix2 g k := funext fun a => Fin.ext (by
    match a with
    | ⟨0, _⟩ => exact d2_r0 _ _
    | ⟨1, _⟩ => exact (d2_r1 _ _).trans hk)
  rw [el, er]

theorem contract3 (l : FVec Ideal S512x2048 .bf16) (r : FVec Ideal S1024x2048 .bf16) (p : Fin 512) (q : Fin 1024) :
    matmul (F := Ideal) D3 none l r (constant (F := Ideal) S512x1024 .f32 0x00000000#32) (ix2 p q)
      = ∑ k : Fin 2048, l (ix2 p k) * r (ix2 q k) := by
  simp only [matmul]
  rw [Ideal.matmul_constant_zero_apply, ← Equiv.sum_comp (contrEquiv1 D3 2048 rfl rfl).symm]
  refine Finset.sum_congr rfl fun k _ => ?_
  have hk := contrEquiv1_symm_val D3 2048 rfl rfl k
  have el : D3.lhsIdx (ix2 p q) ((contrEquiv1 D3 2048 rfl rfl).symm k) = ix2 p k := funext fun a => Fin.ext (by
    match a with
    | ⟨0, _⟩ => exact d3_l0 _ _
    | ⟨1, _⟩ => exact (d3_l1 _ _).trans hk)
  have er : D3.rhsIdx (ix2 p q) ((contrEquiv1 D3 2048 rfl rfl).symm k) = ix2 q k := funext fun a => Fin.ext (by
    match a with
    | ⟨0, _⟩ => exact d3_r0 _ _
    | ⟨1, _⟩ => exact (d3_r1 _ _).trans hk)
  rw [el, er]

/-! ## The body's three stages as vector terms, and each at an entry -/

/-- The first hidden block: input rows times the first weights, plus the first bias row, rectified. -/
def hidden1 (x0 : Vec Ideal S512x1024 .f32) (x1 : Vec Ideal S2048x1024 .bf16) (x2 : Vec Ideal S1x2048 .f32) : FVec Ideal S512x2048 .bf16 :=
  truncf .bf16 (maximumf (addf
      (matmul D1 none (truncf .bf16 (shapeCast S512x1024 x0 shapeCasts_S512x1024_S512x1024 : FVec Ideal S512x1024 .f32) bitsLt_bf16_f32 : FVec Ideal S512x1024 .bf16)
        (shapeCast S2048x1024 x1 shapeCasts_S2048x1024_S2048x1024 : FVec Ideal S2048x1024 .bf16) (constant S512x2048 .f32 0x00000000#32))
      (broadcastTo S512x2048 (shapeCast S1x2048 x2 shapeCasts_S1x2048_S1x2048) broadcasts_S1x2048_S512x2048))
    (broadcast S512x2048 (Scalar.ofBits .f32 0x00000000#32))) bitsLt_bf16_f32

/-- The second hidden block, from the first. -/
def hidden2 (h1 : FVec Ideal S512x2048 .bf16) (x3 : Vec Ideal S2048x2048 .bf16) (x4 : Vec Ideal S1x2048 .f32) : FVec Ideal S512x2048 .bf16 :=
  truncf .bf16 (maximumf (addf
      (matmul D2 none h1 (shapeCast S2048x2048 x3 shapeCasts_S2048x2048_S2048x2048 : FVec Ideal S2048x2048 .bf16) (constant S512x2048 .f32 0x00000000#32))
      (broadcastTo S512x2048 (shapeCast S1x2048 x4 shapeCasts_S1x2048_S1x2048) broadcasts_S1x2048_S512x2048))
    (broadcast S512x2048 (Scalar.ofBits .f32 0x00000000#32))) bitsLt_bf16_f32

/-- The stored block, from the second hidden block. -/
def readout (h2 : FVec Ideal S512x2048 .bf16) (x5 : Vec Ideal S1024x2048 .bf16) (x6 : Vec Ideal S1x1024 .f32) : FVec Ideal S512x1024 .f32 :=
  addf (matmul D3 none h2 (shapeCast S1024x2048 x5 shapeCasts_S1024x2048_S1024x2048 : FVec Ideal S1024x2048 .bf16) (constant S512x1024 .f32 0x00000000#32))
    (broadcastTo S512x1024 (shapeCast S1x1024 x6 shapeCasts_S1x1024_S1x1024) broadcasts_S1x1024_S512x1024)

/-- The body's one payload is the three stages composed. -/
theorem payload_eq (x0 : Vec Ideal S512x1024 .f32) (x1 : Vec Ideal S2048x1024 .bf16) (x2 : Vec Ideal S1x2048 .f32)
    (x3 : Vec Ideal S2048x2048 .bf16) (x4 : Vec Ideal S1x2048 .f32) (x5 : Vec Ideal S1024x2048 .bf16) (x6 : Vec Ideal S1x1024 .f32) :
    k0_pay1 (F := Ideal) x0 x1 x2 x3 x4 x5 x6 = readout (hidden2 (hidden1 x0 x1 x2) x3 x4) x5 x6 := rfl

theorem hidden1_apply (x0 : Vec Ideal S512x1024 .f32) (x1 : Vec Ideal S2048x1024 .bf16) (x2 : Vec Ideal S1x2048 .f32)
    (p : Fin 512) (g : Fin 2048) :
    hidden1 x0 x1 x2 (ix2 p g)
      = relu (affine (fun g k => x1 (ix2 g k)) (fun g => x2 (ix2 (0 : Fin 1) g)) (fun k => x0 (ix2 p k)) g) := by
  unfold hidden1
  rw [truncf_apply, maximumf_apply, addf_apply, contract1, broadcastTo_1b_ab_apply, broadcast_apply]
  simp only [truncf_apply, shapeCast_self]
  rfl

theorem hidden2_apply (h1 : FVec Ideal S512x2048 .bf16) (x3 : Vec Ideal S2048x2048 .bf16) (x4 : Vec Ideal S1x2048 .f32)
    (p : Fin 512) (g : Fin 2048) :
    hidden2 h1 x3 x4 (ix2 p g)
      = relu (affine (fun g k => x3 (ix2 g k)) (fun g => x4 (ix2 (0 : Fin 1) g)) (fun k => h1 (ix2 p k)) g) := by
  unfold hidden2
  rw [truncf_apply, maximumf_apply, addf_apply, contract2, broadcastTo_1b_ab_apply, broadcast_apply]
  simp only [shapeCast_self]
  rfl

theorem readout_apply (h2 : FVec Ideal S512x2048 .bf16) (x5 : Vec Ideal S1024x2048 .bf16) (x6 : Vec Ideal S1x1024 .f32)
    (p : Fin 512) (q : Fin 1024) :
    readout h2 x5 x6 (ix2 p q)
      = affine (fun a k => x5 (ix2 a k)) (fun a => x6 (ix2 (0 : Fin 1) a)) (fun k => h2 (ix2 p k)) q := by
  unfold readout
  rw [addf_apply, contract3, broadcastTo_1b_ab_apply]
  simp only [shapeCast_self]
  rfl

/-- ENTRY (p, q) OF THE STORED BLOCK: output unit `q` of the row map on row `p` of the loaded input block, the weights
    the loaded matrices, the biases the loaded one-row arrays. -/
theorem payload_apply (x0 : Vec Ideal S512x1024 .f32) (x1 : Vec Ideal S2048x1024 .bf16) (x2 : Vec Ideal S1x2048 .f32)
    (x3 : Vec Ideal S2048x2048 .bf16) (x4 : Vec Ideal S1x2048 .f32) (x5 : Vec Ideal S1024x2048 .bf16) (x6 : Vec Ideal S1x1024 .f32)
    (p : Fin 512) (q : Fin 1024) :
    k0_pay1 (F := Ideal) x0 x1 x2 x3 x4 x5 x6 (ix2 p q)
      = rowNet (fun g k => x1 (ix2 g k)) (fun g => x2 (ix2 (0 : Fin 1) g)) (fun g k => x3 (ix2 g k)) (fun g => x4 (ix2 (0 : Fin 1) g))
          (fun a k => x5 (ix2 a k)) (fun a => x6 (ix2 (0 : Fin 1) a)) (fun k => x0 (ix2 p k)) q := by
  rw [payload_eq, readout_apply]
  simp only [hidden2_apply, hidden1_apply]
  rfl

end Cert.KernelIdeal.Body

end
-- ==== Proof.Flat.lean ====
/-
  The same function on the rows laid flat.

  The kernel sees the input as 32768 = 16 · 2048 flat rows and the biases as one-row arrays, and writes a flat
  32768 × 1024 result that the program lays back out as 16 × 2048 rows. Row `b · 2048 + s` of the flat layout is row
  `(b, s)` of the original (both positions are `(b · 2048 + s) · 1024 + k` in row-major order), and a bias row read at
  `(0, g)` is the bias at `g`; so the flat result of the re-laid arguments, laid back out, is the specification.
-/
import proofs.«101347_j7885559955596_2_alg».proof.Proof.Network
import Idealize.ShloMosaic.Lib.Pipeline.Value
import Idealize.ShloMosaic.Lib.ValueLayout

noncomputable section

namespace Cert.Network

open Idealize.ShloMosaic Idealize.ShloMosaic.ValueIdx

/-- The flat result: entry `(r, a)` is output unit `a` of the row map on flat row `r`; each bias is a one-row array. -/
def flat (X : (⟨2, ![32768, 1024]⟩ : Shape).Idx → EReal) (W₁ : (⟨2, ![2048, 1024]⟩ : Shape).Idx → EReal)
    (B₁ : (⟨2, ![1, 2048]⟩ : Shape).Idx → EReal) (W₂ : (⟨2, ![2048, 2048]⟩ : Shape).Idx → EReal)
    (B₂ : (⟨2, ![1, 2048]⟩ : Shape).Idx → EReal) (W₃ : (⟨2, ![1024, 2048]⟩ : Shape).Idx → EReal)
    (B₃ : (⟨2, ![1, 1024]⟩ : Shape).Idx → EReal) : (⟨2, ![32768, 1024]⟩ : Shape).Idx → EReal := fun i =>
  rowNet (fun g k => W₁ (ix2 g k)) (fun g => B₁ (ix2 (0 : Fin 1) g)) (fun g k => W₂ (ix2 g k)) (fun g => B₂ (ix2 (0 : Fin 1) g))
    (fun a k => W₃ (ix2 a k)) (fun a => B₃ (ix2 (0 : Fin 1) a)) (fun k => X (ix2 (i 0) k)) (i 1)

/-- The flat result at explicit coordinates. -/
theorem flat_ix2 (X : (⟨2, ![32768, 1024]⟩ : Shape).Idx → EReal) (W₁ : (⟨2, ![2048, 1024]⟩ : Shape).Idx → EReal)
    (B₁ : (⟨2, ![1, 2048]⟩ : Shape).Idx → EReal) (W₂ : (⟨2, ![2048, 2048]⟩ : Shape).Idx → EReal)
    (B₂ : (⟨2, ![1, 2048]⟩ : Shape).Idx → EReal) (W₃ : (⟨2, ![1024, 2048]⟩ : Shape).Idx → EReal)
    (B₃ : (⟨2, ![1, 1024]⟩ : Shape).Idx → EReal) (r : Fin 32768) (a : Fin 1024) :
    flat X W₁ B₁ W₂ B₂ W₃ B₃ (ix2 r a)
      = rowNet (fun g k => W₁ (ix2 g k)) (fun g => B₁ (ix2 (0 : Fin 1) g)) (fun g k => W₂ (ix2 g k)) (fun g => B₂ (ix2 (0 : Fin 1) g))
          (fun a k => W₃ (ix2 a k)) (fun a => B₃ (ix2 (0 : Fin 1) a)) (fun k => X (ix2 r k)) a := rfl

/-- Laid back out as 16 × 2048 rows, the flat result of the re-laid arguments is the specification. -/
theorem flat_reshape (x : (⟨3, ![16, 2048, 1024]⟩ : Shape).Idx → EReal) (Wi : (⟨2, ![2048, 1024]⟩ : Shape).Idx → EReal)
    (bi : (⟨1, ![2048]⟩ : Shape).Idx → EReal) (Wh : (⟨2, ![2048, 2048]⟩ : Shape).Idx → EReal)
    (bih bhh : (⟨1, ![2048]⟩ : Shape).Idx → EReal) (Wf : (⟨2, ![1024, 2048]⟩ : Shape).Idx → EReal)
    (bf : (⟨1, ![1024]⟩ : Shape).Idx → EReal)
    (hx : (⟨3, ![16, 2048, 1024]⟩ : Shape).ShapeCasts ⟨2, ![32768, 1024]⟩)
    (hb : (⟨1, ![2048]⟩ : Shape).ShapeCasts ⟨2, ![1, 2048]⟩) (hf : (⟨1, ![1024]⟩ : Shape).ShapeCasts ⟨2, ![1, 1024]⟩)
    (hy : (⟨2, ![32768, 1024]⟩ : Shape).ShapeCasts ⟨3, ![16, 2048, 1024]⟩) :
    shapeCast ⟨3, ![16, 2048, 1024]⟩
        (flat (shapeCast ⟨2, ![32768, 1024]⟩ x hx) Wi (shapeCast ⟨2, ![1, 2048]⟩ bi hb) Wh
          (shapeCast ⟨2, ![1, 2048]⟩ (fun i => bih i + bhh i) hb) Wf (shapeCast ⟨2, ![1, 1024]⟩ bf hf)) hy
      = result x Wi bi Wh bih bhh Wf bf := by
  funext i
  obtain ⟨b, s, a, rfl⟩ : ∃ (b : Fin 16) (s : Fin 2048) (a : Fin 1024), i = ix3 b s a := ⟨i 0, i 1, i 2, eq_ix3 i⟩
  have hb16 : b.val < 16 := b.isLt
  have hs : s.val < 2048 := s.isLt
  have hr : b.val * 2048 + s.val < 32768 := by omega
  have ex : ∀ k : Fin 1024, shapeCast ⟨2, ![32768, 1024]⟩ x hx (ix2 (⟨b.val * 2048 + s.val, hr⟩ : Fin 32768) k) = x (ix3 b s k) := fun k =>
    shapeCast_apply x hx _ _ (by
      rw [Shape.rowMajor_val_two, Shape.rowMajor_val_three]
      rfl)
  rw [shapeCast_apply _ hy (ix3 b s a) (ix2 (⟨b.val * 2048 + s.val, hr⟩ : Fin 32768) a) (by
      rw [Shape.rowMajor_val_two, Shape.rowMajor_val_three]
      rfl), flat_ix2, result_ix3]
  simp only [ex, shapeCast_a_1a_apply]

end Cert.Network

end
-- ==== Proof.KernelValue.lean ====
/-
  The kernel's run, read: the program's result array is the specification of its argument arrays.

  1. What the region finds. Before the region the program re-lays the input as 32768 flat rows, narrows the three
     weight matrices' format (the identity at the ideal values), re-lays two biases as one-row arrays and adds the
     other two biases before re-laying their sum. Each staged array is that term of the arguments (`found_*`).
  2. A block at a grid point. Point `t` of the 64 reads rows `512 t … 512 t + 511` of the flat input and the six
     weight and bias arrays whole (their one block, at index (0, 0)); it writes rows `512 t … 512 t + 511` of the
     flat result. By the body's payload read at an entry, what point `t` writes back is block `t` of the flat
     result function `Cert.Network.flat` of the staged arrays (`flushed_eq`).
  3. The 64 blocks tile the flat result (row `r` is in block `r / 512`), so after the run the whole flat array is
     that function (`final`).
  4. After the region the program lays the flat array back out as 16 × 2048 rows; that is the specification
     (`Cert.Network.flat_reshape`), and the run ends with the result there and the arguments unchanged (`run`).
-/
import proofs.«101347_j7885559955596_2_alg».proof.Proof.Gen.KernelIdeal.Frame
import proofs.«101347_j7885559955596_2_alg».proof.Proof.KernelBody
import proofs.«101347_j7885559955596_2_alg».proof.Proof.Flat
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.KernelIdeal.Body Cert.Network Idealize.ShloMosaic.ValueIdx

variable (m : (ℓ : Loc nD τ sig) → Buf (Elt Ideal) ℓ) (ρ : Dev nD → PrngReg)

/-! ## What the region finds in each staged array -/

theorem found_x (c : Dev nD) : (V m c main_v0 : S32768x1024.Idx → EReal)
    = shapeCast S32768x1024 (m ((c : Thread nD τ).loc main_arg0) : S16x2048x1024.Idx → EReal) shapeCasts_S16x2048x1024_S32768x1024 := by
  show StableHlo.after hostOps0 (fun b => m (c, b)) (Proc.devRef .tc main_v0) = _
  after_results
  rfl

theorem found_w1 (c : Dev nD) : (V m c main_v1 : S2048x1024.Idx → EReal) = (m ((c : Thread nD τ).loc main_arg1) : S2048x1024.Idx → EReal) := by
  show StableHlo.after hostOps0 (fun b => m (c, b)) (Proc.devRef .tc main_v1) = _
  after_results
  rfl

theorem found_w2 (c : Dev nD) : (V m c main_v2 : S2048x2048.Idx → EReal) = (m ((c : Thread nD τ).loc main_arg3) : S2048x2048.Idx → EReal) := by
  show StableHlo.after hostOps0 (fun b => m (c, b)) (Proc.devRef .tc main_v2) = _
  after_results
  rfl

theorem found_w3 (c : Dev nD) : (V m c main_v3 : S1024x2048.Idx → EReal) = (m ((c : Thread nD τ).loc main_arg6) : S1024x2048.Idx → EReal) := by
  show StableHlo.after hostOps0 (fun b => m (c, b)) (Proc.devRef .tc main_v3) = _
  after_results
  rfl

theorem found_b1 (c : Dev nD) : (V m c main_v4 : S1x2048.Idx → EReal)
    = shapeCast S1x2048 (m ((c : Thread nD τ).loc main_arg2) : S2048.Idx → EReal) shapeCasts_S2048_S1x2048 := by
  show StableHlo.after hostOps0 (fun b => m (c, b)) (Proc.devRef .tc main_v4) = _
  after_results
  rfl

theorem found_b2 (c : Dev nD) : (V m c main_v6 : S1x2048.Idx → EReal)
    = shapeCast S1x2048 (addf (F := Ideal) (φ := .f32) (m ((c : Thread nD τ).loc main_arg4) : FVec Ideal S2048 .f32) (m ((c : Thread nD τ).loc main_arg5) : FVec Ideal S2048 .f32))
        shapeCasts_S2048_S1x2048 := by
  show StableHlo.after hostOps0 (fun b => m (c, b)) (Proc.devRef .tc main_v6) = _
  after_results
  rfl

theorem found_b3 (c : Dev nD) : (V m c main_v7 : S1x1024.Idx → EReal)
    = shapeCast S1x1024 (m ((c : Thread nD τ).loc main_arg7) : S1024.Idx → EReal) shapeCasts_S1024_S1x1024 := by
  show StableHlo.after hostOps0 (fun b => m (c, b)) (Proc.devRef .tc main_v7) = _
  after_results
  rfl

/-! ## The windows' blocks at a grid point -/

theorem hz : (![0, 0] : Fin 2 → Nat) = fun _ => 0 := funext fun a => by fin_cases a <;> rfl

/-- The printed index maps, decided over the 64 points: the input and the result move down one block of rows per
    point; every other window stays at its one block. -/
theorem idx_facts : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The input's block at point `t`, row `p`: flat row `512 t + p`. -/
theorem xblk_apply (c : Dev nD) (t : Fin cfg0.N) (p : Fin 512) (k : Fin 1024) (r : Fin 32768) (hr : r.val = 512 * t.val + p.val) :
    (iblk m c 0 t : Vec Ideal S512x1024 .f32) (ix2 p k) = (V m c main_v0 : S32768x1024.Idx → EReal) (ix2 r k) := by
  obtain ⟨⟨e0, e1⟩, -⟩ := idx_facts t
  unfold iblk
  rw [View.read_apply]
  show (V m c main_v0 : S32768x1024.Idx → EReal) _ = (V m c main_v0 : S32768x1024.Idx → EReal) _
  refine congrArg (V m c main_v0 : S32768x1024.Idx → EReal) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Each weight or bias window's block, at every point, is its whole staged array. -/
theorem w1blk (c : Dev nD) (t : Fin cfg0.N) : (iblk m c 1 t : Vec Ideal S2048x1024 .bf16) = (V m c main_v1 : S2048x1024.Idx → EReal) := by
  obtain ⟨-, -, ⟨e0, e1⟩, -⟩ := idx_facts t
  funext y
  unfold iblk
  rw [View.read_apply]
  show (V m c main_v1 : S2048x1024.Idx → EReal) _ = (V m c main_v1 : S2048x1024.Idx → EReal) y
  refine congrArg (V m c main_v1 : S2048x1024.Idx → EReal) (funext fun a => Fin.ext ?_)
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

theorem b1blk (c : Dev nD) (t : Fin cfg0.N) : (iblk m c 2 t : Vec Ideal S1x2048 .f32) = (V m c main_v4 : S1x2048.Idx → EReal) := by
  obtain ⟨-, -, -, ⟨e0, e1⟩, -⟩ := idx_facts t
  funext y
  unfold iblk
  rw [View.read_apply]
  show (V m c main_v4 : S1x2048.Idx → EReal) _ = (V m c main_v4 : S1x2048.Idx → EReal) y
  refine congrArg (V m c main_v4 : S1x2048.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

theorem w2blk (c : Dev nD) (t : Fin cfg0.N) : (iblk m c 3 t : Vec Ideal S2048x2048 .bf16) = (V m c main_v2 : S2048x2048.Idx → EReal) := by
  obtain ⟨-, -, -, -, ⟨e0, e1⟩, -⟩ := idx_facts t
  funext y
  unfold iblk
  rw [View.read_apply]
  show (V m c main_v2 : S2048x2048.Idx → EReal) _ = (V m c main_v2 : S2048x2048.Idx → EReal) y
  refine congrArg (V m c main_v2 : S2048x2048.Idx → EReal) (funext fun a => Fin.ext ?_)
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

theorem b2blk (c : Dev nD) (t : Fin cfg0.N) : (iblk m c 4 t : Vec Ideal S1x2048 .f32) = (V m c main_v6 : S1x2048.Idx → EReal) := by
  obtain ⟨-, -, -, -, -, ⟨e0, e1⟩, -⟩ := idx_facts t
  funext y
  unfold iblk
  rw [View.read_apply]
  show (V m c main_v6 : S1x2048.Idx → EReal) _ = (V m c main_v6 : S1x2048.Idx → EReal) y
  refine congrArg (V m c main_v6 : S1x2048.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 2048 + 1 * (y 1).val = (y 1).val; rw [e1]; omega

theorem w3blk (c : Dev nD) (t : Fin cfg0.N) : (iblk m c 5 t : Vec Ideal S1024x2048 .bf16) = (V m c main_v3 : S1024x2048.Idx → EReal) := by
  obtain ⟨-, -, -, -, -, -, ⟨e0, e1⟩, -⟩ := idx_facts t
  funext y
  unfold iblk
  rw [View.read_apply]
  show (V m c main_v3 : S1024x2048.Idx → EReal) _ = (V m c main_v3 : S1024x2048.Idx → EReal) y
  refine congrArg (V m c main_v3 : S1024x2048.Idx → EReal) (funext fun a => Fin.ext ?_)
  match a with
  | ⟨0, _⟩ => show win0_5.index t (0 : Fin 2) * 1024 + 1 * (y 0).val = (y 0).val; rw [e0]; omega
  | ⟨1, _⟩ => show win0_5.index t (1 : Fin 2) * 2048 + 1 * (y 1).val = (y 1).val; rw [e1]; omega

theorem b3blk (c : Dev nD) (t : Fin cfg0.N) : (iblk m c 6 t : Vec Ideal S1x1024 .f32) = (V m c main_v7 : S1x1024.Idx → EReal) := by
  obtain ⟨-, -, -, -, -, -, -, ⟨e0, e1⟩⟩ := idx_facts t
  funext y
  unfold iblk
  rw [View.read_apply]
  show (V m c main_v7 : S1x1024.Idx → EReal) _ = (V m c main_v7 : S1x1024.Idx → EReal) y
  refine congrArg (V m c main_v7 : S1x1024.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-! ## What a point writes back, the cover, the final array -/

/-- The flat result as a function of the arrays the region finds. -/
abbrev flatOf (c : Dev nD) : S32768x1024.Idx → EReal :=
  flat (V m c main_v0) (V m c main_v1) (V m c main_v4) (V m c main_v2) (V m c main_v6) (V m c main_v3) (V m c main_v7)

/-- Entry (p, q) of the block a body stores, over variables: when the loaded input block's row `p` is flat row `r`
    of `X`, it is entry (r, q) of the flat result of `X` and the loaded weights and biases. -/
theorem block_entry (x0 : Vec Ideal S512x1024 .f32) (X : S32768x1024.Idx → EReal) (W₁ : Vec Ideal S2048x1024 .bf16)
    (B₁ : Vec Ideal S1x2048 .f32) (W₂ : Vec Ideal S2048x2048 .bf16) (B₂ : Vec Ideal S1x2048 .f32) (W₃ : Vec Ideal S1024x2048 .bf16)
    (B₃ : Vec Ideal S1x1024 .f32) (p : Fin 512) (q : Fin 1024) (r : Fin 32768) (hx : ∀ k : Fin 1024, x0 (ix2 p k) = X (ix2 r k)) :
    k0_pay1 (F := Ideal) x0 W₁ B₁ W₂ B₂ W₃ B₃ (ix2 p q) = flat X W₁ B₁ W₂ B₂ W₃ B₃ (ix2 r q) := by
  rw [payload_apply, flat_ix2]
  simp only [hx]

/-- WHAT POINT `t` WRITES BACK is block `t` of the flat result of the staged arrays. -/
theorem flushed_eq (c : Dev nD) (t : Fin cfg0.N) :
    (dats m 0 c).flushed 7 t = ((cfg0.win 7).blk t).view.read (Elt Ideal) (flatOf m c) := by
  show (cfg0.win 7).cut (grid0.coords t) ((dats m 0 c).after 7 t) = _
  rw [after0_7]
  unfold out0_7
  rw [View.canon_unit_zero hz]
  simp only [View.ld_unit_zero (S := S512x1024) hz, View.ld_unit_zero (S := S2048x1024) hz, View.ld_unit_zero (S := S1x2048) hz,
    View.ld_unit_zero (S := S2048x2048) hz, View.ld_unit_zero (S := S1024x2048) hz, View.ld_unit_zero (S := S1x1024) hz]
  rw [w1blk, b1blk, w2blk, b2blk, w3blk, b3blk]
  obtain ⟨-, ⟨e0, e1⟩, -⟩ := idx_facts t
  have ht : t.val < 64 := lt_of_lt_of_eq t.isLt N_0
  funext j
  obtain ⟨p, q, rfl⟩ : ∃ (p : Fin 512) (q : Fin 1024), j = ix2 p q :=
    ⟨⟨(j 0).val, (j 0).isLt⟩, ⟨(j 1).val, (j 1).isLt⟩, funext fun a => by match a with | ⟨0, _⟩ => rfl | ⟨1, _⟩ => rfl⟩
  have hp : p.val < 512 := p.isLt
  have ei : ((cfg0.win 7).blk t).view.emb (ix2 p q) = ix2 (⟨512 * t.val + p.val, by omega⟩ : Fin 32768) q :=
    funext fun a => Fin.ext (by
      match a with
      | ⟨0, _⟩ => show win0_7.index t (0 : Fin 2) * 512 + 1 * p.val = 512 * t.val + p.val; rw [e0]; omega
      | ⟨1, _⟩ => show win0_7.index t (1 : Fin 2) * 1024 + 1 * q.val = q.val; rw [e1]; omega)
  show k0_pay1 (F := Ideal) (iblk m c 0 t) (V m c main_v1) (V m c main_v4) (V m c main_v2) (V m c main_v6) (V m c main_v3) (V m c main_v7) (ix2 p q)
    = flatOf m c (((cfg0.win 7).blk t).view.emb (ix2 p q))
  rw [ei]
  exact block_entry (iblk m c 0 t) (V m c main_v0) (V m c main_v1) (V m c main_v4) (V m c main_v2) (V m c main_v6) (V m c main_v3) (V m c main_v7)
    p q _ (fun k => xblk_apply m c t p k _ rfl)

/-- An index of the flat result is in point `t`'s block iff each coordinate is in the block's range on its axis. -/
theorem mem_blk (t : Fin cfg0.N) (i : S32768x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v8).slice (win0_7.rect t)).set ↔ _
  rw [View.set_slice_whole, Rect.mem_set_unit]
  exact Iff.rfl

/-- The 64 blocks tile the flat result: row `r` is in the block of point `r / 512`. -/
theorem cover (i : S32768x1024.Idx) : ∃ t : Fin cfg0.N, (cfg0.win 7).flush t = true ∧ i ∈ ((cfg0.win 7).blk t).view.set := by
  have h0 : (i 0).val < 32768 := (i 0).isLt
  have h1 : (i 1).val < 1024 := (i 1).isLt
  have hN : cfg0.N = 64 := N_0
  obtain ⟨t, ht⟩ : ∃ t : Fin cfg0.N, t.val = (i 0).val / 512 := ⟨⟨(i 0).val / 512, by rw [hN]; omega⟩, rfl⟩
  obtain ⟨-, ⟨e0, e1⟩, -⟩ := idx_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 1024 ≤ (i 1).val ∧ (i 1).val < win0_7.index t (1 : Fin 2) * 1024 + 1024; rw [e1]; omega

/-- THE FLAT ARRAY after the run is the flat result of the staged arrays. -/
theorem final (c : Dev nD) : (dats m 0 c).arrAt 7 cfg0.N = flatOf m c :=
  (dats m 0 c).arrAt_eq_of_cover 7 (flatOf m c) (fun t _ => flushed_eq m c t) cover

/-! ## After the region: the flat array laid back out, and the run -/

/-- The program's result buffer after the lines that follow the region: the flat array, laid out as 16 × 2048 rows. -/
theorem tail_eq (c : Dev nD) :
    (Pipeline.afterTail₀ cfgs (dats m) 0 (V0 m) [hostOps1] c main_v9 : S16x2048x1024.Idx → EReal)
      = shapeCast S16x2048x1024 (flatOf m c) shapeCasts_S32768x1024_S16x2048x1024 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v8) = flatOf m c from
    (Pipeline.withArrays_arr spec0 launch0.win.arr_inj c (V0 m c) (fun w => (dats m 0 c).arrAt w cfg0.N) 7).trans (final m c)]
  rfl

/-- The specification of the argument arrays as launched. -/
abbrev resultOf (c : Dev nD) : S16x2048x1024.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The flat result of what the region finds, laid back out, is the specification of the arguments. -/
theorem value_eq (c : Dev nD) :
    shapeCast S16x2048x1024 (flatOf m c) shapeCasts_S32768x1024_S16x2048x1024 = resultOf m c := by
  unfold flatOf
  rw [found_x, found_w1, found_b1, found_w2, found_b2, found_w3, found_b3]
  exact flat_reshape _ _ _ _ _ _ _ _ _ _ _ _

/-- THE RUN, READ: every weakly fair execution terminates with the result buffer at the specification of the argument
    arrays and the argument arrays unchanged. -/
theorem run : θ_run defs (onTc (τ := τ) (main (F := Ideal))) ⟨m, fun _ => 0, ρ⟩ fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v9 (Pipeline.mem_restRefs_of main_v9 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.lean ====
/-
  A three-layer rectified network on 16 × 2048 rows, as one pipelined kernel over 64 blocks of 512 flat rows, against
  its three-einsum reference: equal results as extended reals, element by element.

  Both programs compute, at entry (b, s, a),
      y = W₃ · max (W₂ · max (W₁ · x + b₁) 0 + b₂) 0 + b₃      on row x = x[b, s, :],
  every product contracting the weights' second axis (`Cert.Network.result`). The kernel narrows its matrix operands'
  float format, which is the identity at the ideal values; its products accumulate into a zero block, which is the
  plain sum; it works on the rows laid flat and tiles them into 64 blocks, which cover the flat result exactly; and
  it adds the two second-layer biases before the product's sum where the reference adds them one after the other —
  associativity of addition, which holds on the extended reals without any finiteness: the precondition is never
  opened. `Cert.KernelIdeal.Hand.run` reads the kernel's run at that function of its arguments,
  `Cert.ReferenceIdeal.RefValue.val_eq_result` the reference's; the two runs are then set side by side from memories
  agreeing on the arguments. The frames are the generated frame runs (the reference's is its generated run with the
  result dropped), and the idealization rewrote no operation, so there is nothing to preserve.
-/
import proofs.«101347_j7885559955596_2_alg».proof.Defs
import proofs.«101347_j7885559955596_2_alg».proof.Proof.Gen.Kernel
import proofs.«101347_j7885559955596_2_alg».proof.Proof.Gen.Kernel.Skeleton
import proofs.«101347_j7885559955596_2_alg».proof.Proof.Gen.Kernel.Launch
import proofs.«101347_j7885559955596_2_alg».proof.Proof.Gen.Kernel.Points
import proofs.«101347_j7885559955596_2_alg».proof.Proof.Gen.Kernel.Frame
import proofs.«101347_j7885559955596_2_alg».proof.Proof.Gen.KernelIdeal
import proofs.«101347_j7885559955596_2_alg».proof.Proof.Gen.KernelIdeal.Skeleton
import proofs.«101347_j7885559955596_2_alg».proof.Proof.Gen.KernelIdeal.Launch
import proofs.«101347_j7885559955596_2_alg».proof.Proof.Gen.KernelIdeal.Points
import proofs.«101347_j7885559955596_2_alg».proof.Proof.Gen.KernelIdeal.Frame
import proofs.«101347_j7885559955596_2_alg».proof.Proof.Gen.ReferenceIdeal
import proofs.«101347_j7885559955596_2_alg».proof.Proof.Gen.ReferenceIdeal.Run
import proofs.«101347_j7885559955596_2_alg».proof.Proof.Gen.ReferenceIdeal.Read
import proofs.«101347_j7885559955596_2_alg».proof.Proof.Gen.Pre_finite_inputs
import proofs.«101347_j7885559955596_2_alg».proof.Proof.RefValue
import proofs.«101347_j7885559955596_2_alg».proof.Proof.KernelValue
import Idealize.ShloMosaic.Adequacy
import Idealize.ShloMosaic.Init

noncomputable section

namespace Cert.Proof

open Idealize.ShloMosaic Idealize.SL.Sem

/-- The kernel as printed runs and leaves its arguments as launched: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both programs end with the specification of those arguments in their
    result buffers: the kernel by its run read at the specification, the reference by its generated run, whose term is
    the specification of its own arguments, which are the kernel's. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v16_eq, Cert.ReferenceIdeal.RefValue.val_eq_result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
